-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg6 : FVec F S1 .f32) (main_arg7 : FVec F S1x1 .f32) (main_arg8 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg7
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S500000 32) (main_arg2 : IVec S500000 32) (main_arg3 : FVec F S128x256 .f32) (main_arg4 : FVec F S128 .f32) (main_arg5 : FVec F S1x128 .f32) (main_arg6 : FVec F S1 .f32) (main_arg7 : FVec F S1x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_v13 main_v16
-- ==== Kernel.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S500000x1 : Shape := ⟨2, ![500000, 1]⟩
abbrev S500000x128 : Shape := ⟨2, ![500000, 128]⟩
abbrev S256x128 : Shape := ⟨2, ![256, 128]⟩
abbrev S128x128 : Shape := ⟨2, ![128, 128]⟩
abbrev S128x1 : Shape := ⟨2, ![128, 1]⟩
abbrev S5000x128 : Shape := ⟨2, ![5000, 128]⟩
abbrev S5000x1 : Shape := ⟨2, ![5000, 1]⟩

abbrev nBuf : Space → Nat
  | .hbm => 40
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S100000x128, .bf16⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .bf16⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .bf16⟩
  | .hbm, ⟨28, _⟩ => ⟨S256x128, .f32⟩
  | .hbm, ⟨29, _⟩ => ⟨S256x128, .bf16⟩
  | .hbm, ⟨30, _⟩ => ⟨S128x128, .bf16⟩
  | .hbm, ⟨31, _⟩ => ⟨S128x128, .bf16⟩
  | .hbm, ⟨32, _⟩ => ⟨S1x128, .f32⟩
  | .hbm, ⟨33, _⟩ => ⟨S128x1, .f32⟩
  | .hbm, ⟨34, _⟩ => ⟨S128x1, .bf16⟩
  | .hbm, ⟨35, _⟩ => ⟨S1x1, .f32⟩
  | .hbm, ⟨36, _⟩ => ⟨S1x1, .f32⟩
  | .hbm, ⟨37, _⟩ => ⟨S1x1, .bf16⟩
  | .hbm, ⟨38, _⟩ => ⟨S1x1, .f32⟩
  | .hbm, ⟨39, _⟩ => ⟨S500000x1, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x1, .bf16⟩
  | .local _ .vmem, ⟨8, _⟩ => ⟨S1x1, .f32⟩
  | .local _ .vmem, ⟨9, _⟩ => ⟨S1x1, .bf16⟩
  | .local _ .vmem, ⟨10, _⟩ => ⟨S1x1, .f32⟩
  | .local _ .vmem, ⟨11, _⟩ => ⟨S5000x1, .f32⟩
  | .local _ .vmem, ⟨12, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  transposes_S1x128_S128x1_1_0 : S1x128.Transposes [1, 0] S128x1
  shapeCasts_S1_S1x1 : S1.ShapeCasts S1x1
  transposes_S1x1_S1x1_1_0 : S1x1.Transposes [1, 0] S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  dot_S5000x1_S1x1_S5000x1_1_0_0_1_n_n_wf : DotDims.WF S5000x1 S1x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .bf16 = 32 ∨ (Rect.block (s := S500000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .bf16 = 32 ∨ (Rect.block (s := S1x1) S1x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S500000x1.size a
  hwx0_9 : ∀ i : grid0.Coords, EltTy.bits .f32 = 32 ∨ (Rect.block (s := S500000x1) S5000x1.size (cc0_transform_9 i) (hinb0_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x1_S1x1_S5000x1_1_0_0_1_n_n : DotDims S5000x1 S1x1 S5000x1 where
  lhsContracting := [1]
  rhsContracting := [0]
  lhsNonContracting := [0]
  rhsNonContracting := [1]
  lhsBatch := []
  rhsBatch := []
  wf := dot_S5000x1_S1x1_S5000x1_1_0_0_1_n_n_wf

abbrev win0_0 : Pipeline.Window sig grid0 :=
  Pipeline.Window.ofSpec (Memref.whole main_v7) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S5000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S128x1 : Shape := ⟨2, ![128, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S500000x256, .f32⟩
  | .hbm, ⟨28, _⟩ => ⟨S256x128, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S500000x128, .f32⟩
  | .hbm, ⟨35, _⟩ => ⟨S500000x128, .f32⟩
  | .hbm, ⟨36, _⟩ => ⟨S128x1, .f32⟩
  | .hbm, ⟨37, _⟩ => ⟨S500000x1, .f32⟩
  | .hbm, ⟨38, _⟩ => ⟨S1x1, .f32⟩
  | .hbm, ⟨39, _⟩ => ⟨S500000x1, .f32⟩
  | .hbm, ⟨40, _⟩ => ⟨S500000x1, .f32⟩
  | .hbm, ⟨41, _⟩ => ⟨S_, .f32⟩
  | .hbm, ⟨42, _⟩ => ⟨S500000x1, .f32⟩
  | .hbm, ⟨43, _⟩ => ⟨S500000x1, .f32⟩
  | .hbm, ⟨44, _⟩ => ⟨S1x1, .f32⟩
  | .hbm, ⟨45, _⟩ => ⟨S500000x1, .f32⟩
  | .hbm, ⟨46, _⟩ => ⟨S1x1, .f32⟩
  | .hbm, ⟨47, _⟩ => ⟨S500000x1, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S500000x1, .f32⟩
  | .hbm, ⟨54, _⟩ => ⟨S_, .f32⟩
  | .hbm, ⟨55, _⟩ => ⟨S500000x1, .f32⟩
  | .hbm, ⟨56, _⟩ => ⟨S500000x1, .f32⟩
  | .hbm, ⟨57, _⟩ => ⟨S_, .f32⟩
  | .hbm, ⟨58, _⟩ => ⟨S500000x1, .f32⟩
  | .hbm, ⟨59, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_cst : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_cst : Ref sig .tc := ⟨.hbm, 49, rfl⟩
abbrev main_call2_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  transposes_S1x1_S1x1_1_0 : S1x1.Transposes [1, 0] S1x1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  dot_S500000x1_S1x1_S500000x1_1_0_0_1_n_n_wf : DotDims.WF S500000x1 S1x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S500000x1_S1x1_S500000x1_1_0_0_1_n_n : DotDims S500000x1 S1x1 S500000x1 where
  lhsContracting := [1]
  rhsContracting := [0]
  lhsNonContracting := [0]
  rhsNonContracting := [1]
  lhsBatch := []
  rhsBatch := []
  wf := dot_S500000x1_S1x1_S500000x1_1_0_0_1_n_n_wf

class Facts : Prop extends Facts₀ where

variable [Facts]
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.BodyRow.lean ====
/-
  What the kernel's body computes for one row of its block, on the extended reals.

  The body takes a block of 5000 edges: their source rows `xs` and destination rows `xd` (5000 × 128 each), the two
  halves `wa`, `wb` of the first layer's weights (128 × 128 each, already transposed: row = input feature, column =
  hidden unit), the bias row `b1` (1 × 128), the second layer's weights as a column `w2` (128 × 1) with its bias `b2`,
  and the third layer's one weight `w3` with its bias `b3`. Row `y` of its result is a function of row `y` of `xs`
  and of `xd` alone: hidden unit `c` is `max (xs[y,·]·wa[·,c] + xd[y,·]·wb[·,c] + b1[c]) 0`; the 128 hidden units
  against `w2`, plus `b2`, rectified; that number times `w3` plus `b3`, rectified; the logistic function of that.
  Each matrix product is taken into a zero accumulator, so it is the plain sum over the contracted coordinate; a
  change of float format is the identity; the 1-long contraction of the last product is its one term.
-/
import proofs.«149243_j80410377716239_2_alg».proof.Proof.Gen.KernelIdeal.Skeleton
import proofs.«149243_j80410377716239_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three products' operand coordinates -/

/-- 5000 × 128 by 128 × 128. -/
abbrev dA := dot_S5000x128_S128x128_S5000x128_1_0_0_1_n_n
/-- 5000 × 128 by 128 × 1. -/
abbrev dB := dot_S5000x128_S128x1_S5000x1_1_0_0_1_n_n
/-- 5000 × 1 by 1 × 1. -/
abbrev dC := dot_S5000x1_S1x1_S5000x1_1_0_0_1_n_n

theorem dA_l0 (i : S5000x128.Idx) (q : dA.contr.Idx) : (dA.lhsIdx i q 0).val = (i 0).val := by
  unfold DotDims.lhsIdx
  rw [dif_neg (show ¬(0 : Fin S5000x128.rank) ∈ dA.lhsBatch by decide), dif_pos (show (0 : Fin S5000x128.rank) ∈ dA.lhsNonContracting by decide)]
  rfl
theorem dA_l1 (i : S5000x128.Idx) (q : dA.contr.Idx) : (dA.lhsIdx i q 1).val = (q ⟨0, by decide⟩).val :=
  dA.lhsIdx_val_of_single rfl i q
theorem dA_r0 (i : S5000x128.Idx) (q : dA.contr.Idx) : (dA.rhsIdx i q 0).val = (q ⟨0, by decide⟩).val :=
  dA.rhsIdx_val_of_single rfl i q
theorem dA_r1 (i : S5000x128.Idx) (q : dA.contr.Idx) : (dA.rhsIdx i q 1).val = (i 1).val := by
  unfold DotDims.rhsIdx
  rw [dif_neg (show ¬(1 : Fin S128x128.rank) ∈ dA.rhsBatch by decide), dif_pos (show (1 : Fin S128x128.rank) ∈ dA.rhsNonContracting by decide)]
  rfl

theorem dB_l0 (i : S5000x1.Idx) (q : dB.contr.Idx) : (dB.lhsIdx i q 0).val = (i 0).val := by
  unfold DotDims.lhsIdx
  rw [dif_neg (show ¬(0 : Fin S5000x128.rank) ∈ dB.lhsBatch by decide), dif_pos (show (0 : Fin S5000x128.rank) ∈ dB.lhsNonContracting by decide)]
  rfl
theorem dB_l1 (i : S5000x1.Idx) (q : dB.contr.Idx) : (dB.lhsIdx i q 1).val = (q ⟨0, by decide⟩).val :=
  dB.lhsIdx_val_of_single rfl i q
theorem dB_r0 (i : S5000x1.Idx) (q : dB.contr.Idx) : (dB.rhsIdx i q 0).val = (q ⟨0, by decide⟩).val :=
  dB.rhsIdx_val_of_single rfl i q
theorem dB_r1 (i : S5000x1.Idx) (q : dB.contr.Idx) : (dB.rhsIdx i q 1).val = (i 1).val := by
  unfold DotDims.rhsIdx
  rw [dif_neg (show ¬(1 : Fin S128x1.rank) ∈ dB.rhsBatch by decide), dif_pos (show (1 : Fin S128x1.rank) ∈ dB.rhsNonContracting by decide)]
  rfl

theorem dC_l0 (i : S5000x1.Idx) (q : dC.contr.Idx) : (dC.lhsIdx i q 0).val = (i 0).val := by
  unfold DotDims.lhsIdx
  rw [dif_neg (show ¬(0 : Fin S5000x1.rank) ∈ dC.lhsBatch by decide), dif_pos (show (0 : Fin S5000x1.rank) ∈ dC.lhsNonContracting by decide)]
  rfl
theorem dC_l1 (i : S5000x1.Idx) (q : dC.contr.Idx) : (dC.lhsIdx i q 1).val = (q ⟨0, by decide⟩).val :=
  dC.lhsIdx_val_of_single rfl i q
theorem dC_r0 (i : S5000x1.Idx) (q : dC.contr.Idx) : (dC.rhsIdx i q 0).val = (q ⟨0, by decide⟩).val :=
  dC.rhsIdx_val_of_single rfl i q
theorem dC_r1 (i : S5000x1.Idx) (q : dC.contr.Idx) : (dC.rhsIdx i q 1).val = (i 1).val := by
  unfold DotDims.rhsIdx
  rw [dif_neg (show ¬(1 : Fin S1x1.rank) ∈ dC.rhsBatch by decide), dif_pos (show (1 : Fin S1x1.rank) ∈ dC.rhsNonContracting by decide)]
  rfl

/-- The first layer's two products, at entry (y, c). -/
theorem mmA (l : FVec Ideal S5000x128 .bf16) (r : FVec Ideal S128x128 .bf16) (y : Fin 5000) (c : Fin 128) :
    FloatOps.matmul dA none l r (constant S5000x128 .f32 0x00000000#32) (ix2 y c) = ∑ j : Fin 128, l (ix2 y j) * r (ix2 j c) :=
  Cert.PlainDot.matmul_zero_apply dA rfl rfl dA_l0 dA_l1 dA_r0 dA_r1 none l r y c
/-- The second layer's product, at entry (y, k). -/
theorem mmB (l : FVec Ideal S5000x128 .bf16) (r : FVec Ideal S128x1 .bf16) (y : Fin 5000) (k : Fin 1) :
    FloatOps.matmul dB none l r (constant S5000x1 .f32 0x00000000#32) (ix2 y k) = ∑ c : Fin 128, l (ix2 y c) * r (ix2 c k) :=
  Cert.PlainDot.matmul_zero_apply dB rfl rfl dB_l0 dB_l1 dB_r0 dB_r1 none l r y k
/-- The third layer's product, at entry (y, k): its one term. -/
theorem mmC (l : FVec Ideal S5000x1 .bf16) (r : FVec Ideal S1x1 .bf16) (y : Fin 5000) (k : Fin 1) :
    FloatOps.matmul dC none l r (constant S5000x1 .f32 0x00000000#32) (ix2 y k) = l (ix2 y (0 : Fin 1)) * r (ix2 (0 : Fin 1) k) :=
  (Cert.PlainDot.matmul_zero_apply dC rfl rfl dC_l0 dC_l1 dC_r0 dC_r1 none l r y k).trans (Fin.sum_univ_one _)

/-! ## The pointwise operations at an index, on the extended reals -/

section
variable {s : Shape} {φ : FTy}
theorem addf_at (a b : FVec Ideal s φ) (i : s.Idx) : addf a b i = a i + b i := rfl
theorem maxf_at (a b : FVec Ideal s φ) (i : s.Idx) : maximumf a b i = max (a i) (b i) := rfl
theorem truncf_at (ψ : FTy) (a : FVec Ideal s φ) (h : ψ.bits < φ.bits) (i : s.Idx) : truncf ψ a h i = a i := rfl
theorem logistic_at (a : FVec Ideal s φ) (i : s.Idx) : logistic a i = Ideal.logistic (a i) := rfl
end

/-- The zero word is the number zero. -/
theorem zero_word : (FloatOps.ofBits (F := Ideal) .f32 0x00000000#32 : EReal) = 0 := Ideal.ofBits_zero_f32

/-! ## The body's result at a row -/

/-- Row `y` of what the body stores, from row `y` of the two feature blocks and the weights. -/
theorem pay_apply (xs xd : Vec Ideal S5000x128 .bf16) (wa wb : Vec Ideal S128x128 .bf16) (b1 : Vec Ideal S1x128 .f32)
    (w2 : Vec Ideal S128x1 .bf16) (b2 : Vec Ideal S1x1 .f32) (w3 : Vec Ideal S1x1 .bf16) (b3 : Vec Ideal S1x1 .f32) (y : Fin 5000) :
    k0_pay1 (k0_pay2 xs xd wa wb b1 w2 b2 w3 b3) (ix2 y (0 : Fin 1))
      = Ideal.logistic (max (max ((∑ c : Fin 128,
            max (((∑ j : Fin 128, xs (ix2 y j) * wa (ix2 j c)) + (∑ j : Fin 128, xd (ix2 y j) * wb (ix2 j c))) + b1 (ix2 (0 : Fin 1) c)) 0
              * w2 (ix2 c (0 : Fin 1))) + b2 (ix2 (0 : Fin 1) (0 : Fin 1))) 0
          * w3 (ix2 (0 : Fin 1) (0 : Fin 1)) + b3 (ix2 (0 : Fin 1) (0 : Fin 1))) 0) := by
  unfold k0_pay1 k0_pay2
  simp only [shapeCast_self, logistic_at, maxf_at, addf_at, truncf_at, broadcast_apply, mmA, mmB, mmC,
    broadcastTo_1b_ab_apply, zero_word]

end Cert.KernelIdeal.Body

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.EdgeScore.lean ====
/-
  The score of one edge of a graph from the feature rows of its two endpoints, on the extended reals.

  An edge joins a source node and a destination node; each node carries a row of 128 features. The two rows, laid side
  by side, make a row of 256 numbers that goes through three dense layers — 256 → 128, 128 → 1, 1 → 1 —, each followed
  by the rectifier, and then through the logistic function. The first layer's weight matrix `W1` has one row per
  hidden unit and 256 columns: columns 0 … 127 meet the source's features, columns 128 … 255 the destination's. So a
  hidden unit is written here already split: the source row against the first 128 columns plus the destination row
  against the last 128, plus the bias. That this is the dot product of the 256-long joined row with the unit's whole
  weight row is `sum_split`: a sum over 256 consecutive positions is the sum over the first 128 plus the sum over the
  last 128, in any commutative monoid — nothing is cancelled or distributed, so no entry need be finite.

  The nodes of an edge are read off a column of 32-bit indices the way a row gather reads them: the index as a signed
  integer, clamped into the table's rows (`node`).
-/
import Idealize.ShloMosaic.Lib.ValueIdx
import Idealize.ShloMosaic.PureOps.Ideal

noncomputable section

open scoped BigOperators

namespace Cert.EdgeScore

open Idealize.ShloMosaic Idealize.ShloMosaic.ValueIdx

/-- A sum over 256 consecutive positions is the sum over the first 128 plus the sum over the last 128. -/
theorem sum_split {M : Type} [AddCommMonoid M] (f : Fin 256 → M) :
    ∑ k : Fin 256, f k
      = (∑ j : Fin 128, f ⟨j.val, by have := j.isLt; omega⟩) + ∑ j : Fin 128, f ⟨128 + j.val, by have := j.isLt; omega⟩ :=
  Fin.sum_univ_add (a := 128) (b := 128) f

/-- Hidden unit `c` of the first layer, from the source's feature row `u` and the destination's `v`: `u` against
    columns 0 … 127 of row `c` of `W1`, plus `v` against columns 128 … 255, plus the bias, rectified. -/
def hidden (u v : Fin 128 → EReal) (W1 : (⟨2, ![128, 256]⟩ : Shape).Idx → EReal) (b1 : (⟨1, ![128]⟩ : Shape).Idx → EReal)
    (c : Fin 128) : EReal :=
  max (((∑ j : Fin 128, u j * W1 (ix2 c (⟨j.val, by have := j.isLt; omega⟩ : Fin 256)))
      + (∑ j : Fin 128, v j * W1 (ix2 c (⟨128 + j.val, by have := j.isLt; omega⟩ : Fin 256)))) + b1 (ix1 c)) 0

/-- The edge's score: the 128 hidden units against the one row of `W2`, plus `b2`, rectified; that number times the
    one entry of `W3`, plus `b3`, rectified; and the logistic function of the result. -/
def score (u v : Fin 128 → EReal) (W1 : (⟨2, ![128, 256]⟩ : Shape).Idx → EReal) (b1 : (⟨1, ![128]⟩ : Shape).Idx → EReal)
    (W2 : (⟨2, ![1, 128]⟩ : Shape).Idx → EReal) (b2 : (⟨1, ![1]⟩ : Shape).Idx → EReal)
    (W3 : (⟨2, ![1, 1]⟩ : Shape).Idx → EReal) (b3 : (⟨1, ![1]⟩ : Shape).Idx → EReal) : EReal :=
  Ideal.logistic (max (max ((∑ c : Fin 128, hidden u v W1 b1 c * W2 (ix2 (0 : Fin 1) c)) + b2 (ix1 (0 : Fin 1))) 0
      * W3 (ix2 (0 : Fin 1) (0 : Fin 1)) + b3 (ix1 (0 : Fin 1))) 0)

/-- The node an edge's index names: entry `e` of the index column read as a signed integer and clamped into the
    table's 100000 rows. -/
def node (idx : IVec (⟨2, ![500000, 1]⟩ : Shape) 32) (e : Fin 500000) : Fin 100000 :=
  ⟨min (idx (ix2 e (0 : Fin 1))).toInt.toNat (100000 - 1), by omega⟩

/-- Every edge's score, as one array: entry (e, 0) is the score of edge `e` from the rows of the node table `h` that
    the two index columns name. -/
def scores (h : (⟨2, ![100000, 128]⟩ : Shape).Idx → EReal) (src dst : IVec (⟨2, ![500000, 1]⟩ : Shape) 32)
    (W1 : (⟨2, ![128, 256]⟩ : Shape).Idx → EReal) (b1 : (⟨1, ![128]⟩ : Shape).Idx → EReal)
    (W2 : (⟨2, ![1, 128]⟩ : Shape).Idx → EReal) (b2 : (⟨1, ![1]⟩ : Shape).Idx → EReal)
    (W3 : (⟨2, ![1, 1]⟩ : Shape).Idx → EReal) (b3 : (⟨1, ![1]⟩ : Shape).Idx → EReal) :
    (⟨2, ![500000, 1]⟩ : Shape).Idx → EReal :=
  fun i => score (fun j => h (ix2 (node src (i 0)) j)) (fun j => h (ix2 (node dst (i 0)) j)) W1 b1 W2 b2 W3 b3

end Cert.EdgeScore

end
-- ==== Proof.HostArrays.lean ====
/-
  What the kernel's operand arrays hold when its region is entered, in terms of the program's arguments.

  Before the region the program prepares nine arrays from its arguments `h` (the node table), `src`, `dst` (the edges'
  endpoints) and the three layers' weights and biases. Each index vector is made into a column after a negative index
  has had the table's 100000 rows added (`idxCol`); the rows of `h` named by that column are gathered (a row gather
  reads the index signed and clamps it into the table: `EdgeScore.node`). `W1` is transposed to 256 × 128 and cut into
  its first and last 128 rows; `W2` is transposed into a column, `W3` transposed; the biases become rows of a 1-row
  matrix. The changes of float format along the way are the identity on the extended reals. Read at an entry:
    source rows      (e, j) ↦ h (node of src at e, j)         destination rows (e, j) ↦ h (node of dst at e, j)
    first half       (j, c) ↦ W1 (c, j)                       second half      (j, c) ↦ W1 (c, 128 + j)
    bias row         (0, c) ↦ b1 c                            second layer     (c, 0) ↦ W2 (0, c)
    its bias         (0, 0) ↦ b2 0      third layer (0, 0) ↦ W3 (0, 0)      its bias (0, 0) ↦ b3 0
-/
import proofs.«149243_j80410377716239_2_alg».proof.Proof.Gen.KernelIdeal.Frame
import proofs.«149243_j80410377716239_2_alg».proof.Proof.LibGatherRows
import proofs.«149243_j80410377716239_2_alg».proof.Proof.EdgeScore
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.EdgeScore

variable (m : (ℓ : Loc nD τ sig) → Buf (Elt Ideal) ℓ)

/-- An index vector as the gather takes it: a negative index has the table's 100000 rows added, and the vector is
    made a column. -/
def idxCol (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 100000#32))) s)

/-! ## The arrays as terms of the arguments -/

theorem V_v7 (c : Dev nD) : (V m c main_v7 : S500000x128.Idx → EReal)
    = Host.gather gather_S100000x128_S500000x1_S500000x128_1_0_n_n_0_1_1128
        (truncf (F := Ideal) .bf16 (m ((c : Thread nD τ).loc main_arg0) : FVec Ideal S100000x128 .f32) bitsLt_bf16_f32)
        (idxCol (m ((c : Thread nD τ).loc main_arg1))) := by
  dsimp only [Gen.V, Gen.hostOps0]; after_results <;> rfl

theorem V_v14 (c : Dev nD) : (V m c main_v14 : S500000x128.Idx → EReal)
    = Host.gather gather_S100000x128_S500000x1_S500000x128_1_0_n_n_0_1_1128
        (truncf (F := Ideal) .bf16 (m ((c : Thread nD τ).loc main_arg0) : FVec Ideal S100000x128 .f32) bitsLt_bf16_f32)
        (idxCol (m ((c : Thread nD τ).loc main_arg2))) := by
  dsimp only [Gen.V, Gen.hostOps0]; after_results <;> rfl

theorem V_v17 (c : Dev nD) : (V m c main_v17 : S128x128.Idx → EReal)
    = extractStridedSlice S128x128 ![0, 0] (truncf (F := Ideal) .bf16 (transpose S256x128 [1, 0] (m ((c : Thread nD τ).loc main_arg3) : FVec Ideal S128x256 .f32) transposes_S128x256_S256x128_1_0) bitsLt_bf16_f32) slices_S256x128_S128x128_0_0 := by
  dsimp only [Gen.V, Gen.hostOps0]; after_results <;> rfl

theorem V_v18 (c : Dev nD) : (V m c main_v18 : S128x128.Idx → EReal)
    = extractStridedSlice S128x128 ![128, 0] (truncf (F := Ideal) .bf16 (transpose S256x128 [1, 0] (m ((c : Thread nD τ).loc main_arg3) : FVec Ideal S128x256 .f32) transposes_S128x256_S256x128_1_0) bitsLt_bf16_f32) slices_S256x128_S128x128_128_0 := by
  dsimp only [Gen.V, Gen.hostOps0]; after_results <;> rfl

theorem V_v19 (c : Dev nD) : (V m c main_v19 : S1x128.Idx → EReal)
    = shapeCast S1x128 (m ((c : Thread nD τ).loc main_arg4) : S128.Idx → EReal) shapeCasts_S128_S1x128 := by
  dsimp only [Gen.V, Gen.hostOps0]; after_results <;> rfl

theorem V_v21 (c : Dev nD) : (V m c main_v21 : S128x1.Idx → EReal)
    = truncf (F := Ideal) .bf16 (transpose S128x1 [1, 0] (m ((c : Thread nD τ).loc main_arg5) : FVec Ideal S1x128 .f32) transposes_S1x128_S128x1_1_0) bitsLt_bf16_f32 := by
  dsimp only [Gen.V, Gen.hostOps0]; after_results <;> rfl

theorem V_v22 (c : Dev nD) : (V m c main_v22 : S1x1.Idx → EReal)
    = shapeCast S1x1 (m ((c : Thread nD τ).loc main_arg6) : S1.Idx → EReal) shapeCasts_S1_S1x1 := by
  dsimp only [Gen.V, Gen.hostOps0]; after_results <;> rfl

theorem V_v24 (c : Dev nD) : (V m c main_v24 : S1x1.Idx → EReal)
    = truncf (F := Ideal) .bf16 (transpose S1x1 [1, 0] (m ((c : Thread nD τ).loc main_arg7) : FVec Ideal S1x1 .f32) transposes_S1x1_S1x1_1_0) bitsLt_bf16_f32 := by
  dsimp only [Gen.V, Gen.hostOps0]; after_results <;> rfl

theorem V_v25 (c : Dev nD) : (V m c main_v25 : S1x1.Idx → EReal)
    = shapeCast S1x1 (m ((c : Thread nD τ).loc main_arg8) : S1.Idx → EReal) shapeCasts_S1_S1x1 := by
  dsimp only [Gen.V, Gen.hostOps0]; after_results <;> rfl

end Cert.KernelIdeal.HostArrays

end
-- ==== Proof.HostReads.lean ====
/-
  The kernel's operand arrays read at an entry, in terms of the program's arguments (the table in the header of the
  module that states the arrays as terms): a gathered row is a row of the node table, a half of the transposed first
  layer is `W1` with its coordinates swapped (the second half 128 columns further), the second layer's column is
  `W2`'s row, the biases are read at the unit's number.
-/
import proofs.«149243_j80410377716239_2_alg».proof.Proof.HostArrays

noncomputable section

namespace Cert.KernelIdeal.HostArrays

open Cert.KernelIdeal Cert.KernelIdeal.Gen Idealize.ShloMosaic Idealize.ShloMosaic.TcCoe Idealize.SL.Sem
open Idealize.ShloMosaic.ValueIdx Cert.EdgeScore

variable (m : (ℓ : Loc nD τ sig) → Buf (Elt Ideal) ℓ)

/-- Edge `e`'s gathered source row is the node table's row at the node `src` names. -/
theorem v7_apply (c : Dev nD) (e : Fin 500000) (j : Fin 128) :
    (V m c main_v7 : S500000x128.Idx → EReal) (ix2 e j)
      = (m ((c : Thread nD τ).loc main_arg0) : S100000x128.Idx → EReal)
          (ix2 (node (idxCol (m ((c : Thread nD τ).loc main_arg1))) e) j) := by
  rw [V_v7]
  exact GatherRows.gather_rows_apply (N := 100000) (R := 500000) (C := 128) (by decide) _ _ _ e j

/-- Edge `e`'s gathered destination row is the node table's row at the node `dst` names. -/
theorem v14_apply (c : Dev nD) (e : Fin 500000) (j : Fin 128) :
    (V m c main_v14 : S500000x128.Idx → EReal) (ix2 e j)
      = (m ((c : Thread nD τ).loc main_arg0) : S100000x128.Idx → EReal)
          (ix2 (node (idxCol (m ((c : Thread nD τ).loc main_arg2))) e) j) := by
  rw [V_v14]
  exact GatherRows.gather_rows_apply (N := 100000) (R := 500000) (C := 128) (by decide) _ _ _ e j

/-- The first half of the transposed first layer: entry (j, c) is `W1 (c, j)`. -/
theorem v17_apply (c : Dev nD) (j q : Fin 128) (pf : j.val < 256) :
    (V m c main_v17 : S128x128.Idx → EReal) (ix2 j q)
      = (m ((c : Thread nD τ).loc main_arg3) : S128x256.Idx → EReal) (ix2 q (⟨j.val, pf⟩ : Fin 256)) := by
  rw [V_v17]
  refine (slice2_axis0_apply 0 _ _ j q (⟨j.val, pf⟩ : Fin 256) (Nat.zero_add _).symm).trans ?_
  exact transpose_ix2_apply _ _ _ _

/-- The second half: entry (j, c) is `W1 (c, 128 + j)`. -/
theorem v18_apply (c : Dev nD) (j q : Fin 128) (pf : 128 + j.val < 256) :
    (V m c main_v18 : S128x128.Idx → EReal) (ix2 j q)
      = (m ((c : Thread nD τ).loc main_arg3) : S128x256.Idx → EReal) (ix2 q (⟨128 + j.val, pf⟩ : Fin 256)) := by
  rw [V_v18]
  refine (slice2_axis0_apply 128 _ _ j q (⟨128 + j.val, pf⟩ : Fin 256) rfl).trans ?_
  exact transpose_ix2_apply _ _ _ _

/-- The bias row: entry (0, c) is `b1 c`. -/
theorem v19_apply (c : Dev nD) (u : Fin 1) (q : Fin 128) :
    (V m c main_v19 : S1x128.Idx → EReal) (ix2 u q) = (m ((c : Thread nD τ).loc main_arg4) : S128.Idx → EReal) (ix1 q) := by
  rw [V_v19]
  exact shapeCast_a_1a_apply _ _ u q

/-- The second layer's column: entry (c, 0) is `W2 (0, c)`. -/
theorem v21_apply (c : Dev nD) (q : Fin 128) (k : Fin 1) :
    (V m c main_v21 : S128x1.Idx → EReal) (ix2 q k) = (m ((c : Thread nD τ).loc main_arg5) : S1x128.Idx → EReal) (ix2 k q) := by
  rw [V_v21]
  exact transpose_ix2_apply _ _ _ _

/-- Its bias. -/
theorem v22_apply (c : Dev nD) (u k : Fin 1) :
    (V m c main_v22 : S1x1.Idx → EReal) (ix2 u k) = (m ((c : Thread nD τ).loc main_arg6) : S1.Idx → EReal) (ix1 k) := by
  rw [V_v22]
  exact shapeCast_a_1a_apply _ _ u k

/-- The third layer's weight. -/
theorem v24_apply (c : Dev nD) (a b : Fin 1) :
    (V m c main_v24 : S1x1.Idx → EReal) (ix2 a b) = (m ((c : Thread nD τ).loc main_arg7) : S1x1.Idx → EReal) (ix2 b a) := by
  rw [V_v24]
  exact transpose_ix2_apply _ _ _ _

/-- Its bias. -/
theorem v25_apply (c : Dev nD) (u k : Fin 1) :
    (V m c main_v25 : S1x1.Idx → EReal) (ix2 u k) = (m ((c : Thread nD τ).loc main_arg8) : S1.Idx → EReal) (ix1 k) := by
  rw [V_v25]
  exact shapeCast_a_1a_apply _ _ u k

end Cert.KernelIdeal.HostArrays

end
-- ==== Proof.BlockReads.lean ====
/-
  The blocks the kernel's body is given at a grid point, read at an entry in terms of the program's arguments.

  Grid point `t` works on edges 5000·t … 5000·t + 4999: its two feature blocks are those rows of the gathered source
  and destination rows (so row `y` of a block is the node-table row that edge 5000·t + y names), the weight and bias
  operands are whole arrays (block (0, 0) at every point), and the block it writes back is rows 5000·t … 5000·t + 4999
  of the result. An entry of a block sits in its array at block index × block size + the coordinate inside the block.
-/
import proofs.«149243_j80410377716239_2_alg».proof.Proof.HostReads
import proofs.«149243_j80410377716239_2_alg».proof.Proof.EdgeScore
import Idealize.ShloMosaic.Lib.Pipeline.Value
import Idealize.ShloMosaic.Lib.Tactic

noncomputable section

open scoped BigOperators

namespace Cert.KernelIdeal.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.EdgeScore Cert.KernelIdeal.HostArrays

variable (m : (ℓ : Loc nD τ sig) → Buf (Elt Ideal) ℓ) (ρ : Dev nD → PrngReg)

theorem hz : (![0, 0] : Fin 2 → Nat) = fun _ => 0 := funext fun a => by fin_cases a <;> rfl

/-- The array of all the edges' scores, from the program's arguments on core `c`. -/
def result (c : Dev nD) : S500000x1.Idx → EReal :=
  scores (m ((c : Thread nD τ).loc main_arg0)) (idxCol (m ((c : Thread nD τ).loc main_arg1)))
    (idxCol (m ((c : Thread nD τ).loc main_arg2))) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The index maps over the grid: the two feature windows and the result move one block of rows per point, the
    other windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each input block read at an entry, in terms of the arguments -/

/-- Row `y` of the source block at point `t` is the row of the node table that edge `e = 5000·t + y`'s source names. -/
theorem xs_at (c : Dev nD) (t : Fin cfg0.N) (y : Fin 5000) (e : Fin 500000) (he : e.val = t.val * 5000 + y.val) (j : Fin 128) :
    (iblk m c 0 t : Vec Ideal S5000x128 .bf16) (ix2 y j)
      = (m ((c : Thread nD τ).loc main_arg0) : S100000x128.Idx → EReal)
          (ix2 (node (idxCol (m ((c : Thread nD τ).loc main_arg1))) e) j) := by
  rw [← v7_apply m c e j]
  unfold iblk
  rw [View.read_apply]
  show V m c main_v7 (((cfg0.win 0).blk t).view.emb (ix2 y j)) = V m c main_v7 (ix2 e j)
  refine congrArg (V m c main_v7) (funext fun a => Fin.ext ?_)
  obtain ⟨⟨e0, e1⟩, -⟩ := idx_facts t
  match a with
  | ⟨0, _⟩ => show win0_0.index t (0 : Fin 2) * 5000 + 1 * y.val = e.val; rw [e0, he]; omega
  | ⟨1, _⟩ => show win0_0.index t (1 : Fin 2) * 128 + 1 * j.val = j.val; rw [e1]; omega

/-- The same for the destination block. -/
theorem xd_at (c : Dev nD) (t : Fin cfg0.N) (y : Fin 5000) (e : Fin 500000) (he : e.val = t.val * 5000 + y.val) (j : Fin 128) :
    (iblk m c 1 t : Vec Ideal S5000x128 .bf16) (ix2 y j)
      = (m ((c : Thread nD τ).loc main_arg0) : S100000x128.Idx → EReal)
          (ix2 (node (idxCol (m ((c : Thread nD τ).loc main_arg2))) e) j) := by
  rw [← v14_apply m c e j]
  unfold iblk
  rw [View.read_apply]
  show V m c main_v14 (((cfg0.win 1).blk t).view.emb (ix2 y j)) = V m c main_v14 (ix2 e j)
  refine congrArg (V m c main_v14) (funext fun a => Fin.ext ?_)
  obtain ⟨-, ⟨e0, e1⟩, -⟩ := idx_facts t
  match a with
  | ⟨0, _⟩ => show win0_1.index t (0 : Fin 2) * 5000 + 1 * y.val = e.val; rw [e0, he]; omega
  | ⟨1, _⟩ => show win0_1.index t (1 : Fin 2) * 128 + 1 * j.val = j.val; rw [e1]; omega

/-- The first half of the first layer's weights, whole at every point. -/
theorem wa_at (c : Dev nD) (t : Fin cfg0.N) (j q : Fin 128) :
    (iblk m c 2 t : Vec Ideal S128x128 .bf16) (ix2 j q)
      = (m ((c : Thread nD τ).loc main_arg3) : S128x256.Idx → EReal)
          (ix2 q (⟨j.val, by have := j.isLt; omega⟩ : Fin 256)) := by
  rw [← v17_apply m c j q (by have := j.isLt; omega)]
  unfold iblk
  rw [View.read_apply]
  show V m c main_v17 (((cfg0.win 2).blk t).view.emb (ix2 j q)) = V m c main_v17 (ix2 j q)
  refine congrArg (V m c main_v17) (funext fun a => Fin.ext ?_)
  obtain ⟨-, -, ⟨e0, e1⟩, -⟩ := idx_facts t
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-- The second half. -/
theorem wb_at (c : Dev nD) (t : Fin cfg0.N) (j q : Fin 128) :
    (iblk m c 3 t : Vec Ideal S128x128 .bf16) (ix2 j q)
      = (m ((c : Thread nD τ).loc main_arg3) : S128x256.Idx → EReal)
          (ix2 q (⟨128 + j.val, by have := j.isLt; omega⟩ : Fin 256)) := by
  rw [← v18_apply m c j q (by have := j.isLt; omega)]
  unfold iblk
  rw [View.read_apply]
  show V m c main_v18 (((cfg0.win 3).blk t).view.emb (ix2 j q)) = V m c main_v18 (ix2 j q)
  refine congrArg (V m c main_v18) (funext fun a => Fin.ext ?_)
  obtain ⟨-, -, -, ⟨e0, e1⟩, -⟩ := idx_facts t
  match a with
  | ⟨0, _⟩ => show win0_3.index t (0 : Fin 2) * 128 + 1 * j.val = j.val; rw [e0]; omega
  | ⟨1, _⟩ => show win0_3.index t (1 : Fin 2) * 128 + 1 * q.val = q.val; rw [e1]; omega

/-- The first layer's bias row. -/
theorem b1_at (c : Dev nD) (t : Fin cfg0.N) (u : Fin 1) (q : Fin 128) :
    (iblk m c 4 t : Vec Ideal S1x128 .f32) (ix2 u q) = (m ((c : Thread nD τ).loc main_arg4) : S128.Idx → EReal) (ix1 q) := by
  rw [← v19_apply m c u q]
  unfold iblk
  rw [View.read_apply]
  show V m c main_v19 (((cfg0.win 4).blk t).view.emb (ix2 u q)) = V m c main_v19 (ix2 u q)
  refine congrArg (V m c main_v19) (funext fun a => Fin.ext ?_)
  obtain ⟨-, -, -, -, ⟨e0, e1⟩, -⟩ := idx_facts t
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-- The second layer's weights, a column. -/
theorem w2_at (c : Dev nD) (t : Fin cfg0.N) (q : Fin 128) (k : Fin 1) :
    (iblk m c 5 t : Vec Ideal S128x1 .bf16) (ix2 q k) = (m ((c : Thread nD τ).loc main_arg5) : S1x128.Idx → EReal) (ix2 k q) := by
  rw [← v21_apply m c q k]
  unfold iblk
  rw [View.read_apply]
  show V m c main_v21 (((cfg0.win 5).blk t).view.emb (ix2 q k)) = V m c main_v21 (ix2 q k)
  refine congrArg (V m c main_v21) (funext fun a => Fin.ext ?_)
  obtain ⟨-, -, -, -, -, ⟨e0, e1⟩, -⟩ := idx_facts t
  match a with
  | ⟨0, _⟩ => show win0_5.index t (0 : Fin 2) * 128 + 1 * q.val = q.val; rw [e0]; omega
  | ⟨1, _⟩ => show win0_5.index t (1 : Fin 2) * 1 + 1 * k.val = k.val; rw [e1]; omega

/-- Its bias. -/
theorem b2_at (c : Dev nD) (t : Fin cfg0.N) (u k : Fin 1) :
    (iblk m c 6 t : Vec Ideal S1x1 .f32) (ix2 u k) = (m ((c : Thread nD τ).loc main_arg6) : S1.Idx → EReal) (ix1 k) := by
  rw [← v22_apply m c u k]
  unfold iblk
  rw [View.read_apply]
  show V m c main_v22 (((cfg0.win 6).blk t).view.emb (ix2 u k)) = V m c main_v22 (ix2 u k)
  refine congrArg (V m c main_v22) (funext fun a => Fin.ext ?_)
  obtain ⟨-, -, -, -, -, -, ⟨e0, e1⟩, -⟩ := idx_facts t
  match a with
  | ⟨0, _⟩ => show win0_6.index t (0 : Fin 2) * 1 + 1 * u.val = u.val; rw [e0]; omega
  | ⟨1, _⟩ => show win0_6.index t (1 : Fin 2) * 1 + 1 * k.val = k.val; rw [e1]; omega

/-- The third layer's weight. -/
theorem w3_at (c : Dev nD) (t : Fin cfg0.N) (a b : Fin 1) :
    (iblk m c 7 t : Vec Ideal S1x1 .bf16) (ix2 a b) = (m ((c : Thread nD τ).loc main_arg7) : S1x1.Idx → EReal) (ix2 b a) := by
  rw [← v24_apply m c a b]
  unfold iblk
  rw [View.read_apply]
  show V m c main_v24 (((cfg0.win 7).blk t).view.emb (ix2 a b)) = V m c main_v24 (ix2 a b)
  refine congrArg (V m c main_v24) (funext fun x => Fin.ext ?_)
  obtain ⟨-, -, -, -, -, -, -, ⟨e0, e1⟩, -⟩ := idx_facts t
  match x with
  | ⟨0, _⟩ => show win0_7.index t (0 : Fin 2) * 1 + 1 * a.val = a.val; rw [e0]; omega
  | ⟨1, _⟩ => show win0_7.index t (1 : Fin 2) * 1 + 1 * b.val = b.val; rw [e1]; omega

/-- Its bias. -/
theorem b3_at (c : Dev nD) (t : Fin cfg0.N) (u k : Fin 1) :
    (iblk m c 8 t : Vec Ideal S1x1 .f32) (ix2 u k) = (m ((c : Thread nD τ).loc main_arg8) : S1.Idx → EReal) (ix1 k) := by
  rw [← v25_apply m c u k]
  unfold iblk
  rw [View.read_apply]
  show V m c main_v25 (((cfg0.win 8).blk t).view.emb (ix2 u k)) = V m c main_v25 (ix2 u k)
  refine congrArg (V m c main_v25) (funext fun a => Fin.ext ?_)
  obtain ⟨-, -, -, -, -, -, -, -, ⟨e0, e1⟩, -⟩ := idx_facts t
  match a with
  | ⟨0, _⟩ => show win0_8.index t (0 : Fin 2) * 1 + 1 * u.val = u.val; rw [e0]; omega
  | ⟨1, _⟩ => show win0_8.index t (1 : Fin 2) * 1 + 1 * k.val = k.val; rw [e1]; omega

/-- Row `y` of the block point `t` writes sits at row `5000·t + y` of the result array. -/
theorem emb_out (t : Fin cfg0.N) (y : Fin 5000) (e : Fin 500000) (he : e.val = t.val * 5000 + y.val) :
    ((cfg0.win 9).blk t).view.emb (ix2 y (0 : Fin 1)) = ix2 e (0 : Fin 1) := by
  funext a
  apply Fin.ext
  obtain ⟨-, -, -, -, -, -, -, -, -, ⟨e0, e1⟩⟩ := idx_facts t
  match a with
  | ⟨0, _⟩ => show win0_9.index t (0 : Fin 2) * 5000 + 1 * y.val = e.val; rw [e0, he]; omega
  | ⟨1, _⟩ => show win0_9.index t (1 : Fin 2) * 1 + 1 * 0 = 0; rw [e1]

end Cert.KernelIdeal.KernelArray

end
-- ==== Proof.KernelArray.lean ====
/-
  The kernel's result array: 100 blocks of 5000 edges, each block the scores of its own edges.

  Grid point `t` works on edges 5000·t … 5000·t + 4999: its two feature blocks are those rows of the gathered source
  and destination rows, the weight and bias operands are whole arrays (the same at every point), and what it writes
  back is rows 5000·t … 5000·t + 4999 of the result. Row `y` of the block it stores is, by the body's arithmetic, a
  function of row `y` of the two feature blocks and the weights; with each operand read at an entry in terms of the
  program's arguments, that function is the score of edge 5000·t + y. The 100 blocks tile the 500000 rows (edge `e`
  lies in block `e / 5000`), so after the run the result array is the array of all the edges' scores.
-/
import proofs.«149243_j80410377716239_2_alg».proof.Proof.Gen.KernelIdeal.Value
import proofs.«149243_j80410377716239_2_alg».proof.Proof.BodyRow
import proofs.«149243_j80410377716239_2_alg».proof.Proof.BlockReads
import proofs.«149243_j80410377716239_2_alg».proof.Proof.EdgeScore
import Idealize.ShloMosaic.Lib.Pipeline.Value
import Idealize.ShloMosaic.Lib.Tactic

noncomputable section

open scoped BigOperators

namespace Cert.KernelIdeal.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.EdgeScore Cert.KernelIdeal.HostArrays

variable (m : (ℓ : Loc nD τ sig) → Buf (Elt Ideal) ℓ) (ρ : Dev nD → PrngReg)

/-! ## What a point writes back, the cover, the array -/

/-- WHAT POINT `t` WRITES BACK is block `t` of the array of scores. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  funext j
  obtain ⟨y, k, rfl⟩ : ∃ (y : Fin 5000) (k : Fin 1), j = ix2 y k := ⟨j 0, j 1, eq_ix2 j⟩
  obtain rfl : k = 0 := Subsingleton.elim _ _
  have ht : t.val < 100 := lt_of_lt_of_eq t.isLt N_0
  have hy : y.val < 5000 := y.isLt
  rw [View.read_apply, emb_out t y ⟨t.val * 5000 + y.val, by omega⟩ rfl]
  show k0_pay1 (k0_pay2 (iblk m c 0 t) (iblk m c 1 t) (iblk m c 2 t) (iblk m c 3 t) (iblk m c 4 t) (iblk m c 5 t) (iblk m c 6 t)
      (iblk m c 7 t) (iblk m c 8 t)) (ix2 y (0 : Fin 1)) = _
  refine (Body.pay_apply (iblk m c 0 t) (iblk m c 1 t) (iblk m c 2 t) (iblk m c 3 t) (iblk m c 4 t) (iblk m c 5 t) (iblk m c 6 t)
      (iblk m c 7 t) (iblk m c 8 t) y).trans ?_
  unfold result scores score Cert.EdgeScore.hidden
  simp only [xs_at m c t y ⟨t.val * 5000 + y.val, by omega⟩ rfl, xd_at m c t y ⟨t.val * 5000 + y.val, by omega⟩ rfl,
    wa_at m c t, wb_at m c t, b1_at m c t, w2_at m c t, b2_at m c t, w3_at m c t, b3_at m c t]
  rfl

/-- An index of the result array is in point `t`'s block iff each coordinate is in the block's range. -/
theorem mem_blk (t : Fin cfg0.N) (i : S500000x1.Idx) :
    i ∈ ((cfg0.win 9).blk t).view.set ↔ ∀ a : Fin 2, win0_9.index t a * S5000x1.size a ≤ (i a).val
      ∧ (i a).val < win0_9.index t a * S5000x1.size a + S5000x1.size a := by
  show i ∈ ((View.whole main_v26).slice (win0_9.rect t)).set ↔ _
  rw [View.set_slice_whole, Rect.mem_set_unit]
  exact Iff.rfl

/-- Every row of the result lies in some point's block: edge `e` in block `e / 5000`. -/
theorem cover (i : S500000x1.Idx) :
    ∃ t : Fin cfg0.N, (cfg0.win 9).flush t = true ∧ i ∈ ((cfg0.win 9).blk t).view.set := by
  have hi0 : (i 0).val < 500000 := (i 0).isLt
  have hi1 : (i 1).val < 1 := (i 1).isLt
  have hN : cfg0.N = 100 := N_0
  refine ⟨⟨(i 0).val / 5000, by rw [hN]; omega⟩, flush0_9 _, ?_⟩
  rw [mem_blk]
  obtain ⟨-, -, -, -, -, -, -, -, -, ⟨e0, e1⟩⟩ := idx_facts ⟨(i 0).val / 5000, by rw [hN]; omega⟩
  intro a
  match a with
  | ⟨0, _⟩ =>
    show win0_9.index _ (0 : Fin 2) * 5000 ≤ (i 0).val ∧ (i 0).val < win0_9.index _ (0 : Fin 2) * 5000 + 5000
    rw [e0]
    show (i 0).val / 5000 * 5000 ≤ (i 0).val ∧ (i 0).val < (i 0).val / 5000 * 5000 + 5000
    omega
  | ⟨1, _⟩ =>
    show win0_9.index _ (1 : Fin 2) * 1 ≤ (i 1).val ∧ (i 1).val < win0_9.index _ (1 : Fin 2) * 1 + 1
    rw [e1]
    omega

/-- THE RESULT ARRAY after the run is the array of the edges' scores. -/
theorem final (c : Dev nD) : (dats m 0 c).arrAt 9 cfg0.N = result m c :=
  (dats m 0 c).arrAt_eq_of_cover 9 (result m c) (fun t _ => flushed_eq m c t) cover

/-- The kernel's run, read: the result array at the edges' scores, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.KernelArray

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.RefRow.lean ====
/-
  The reference program's result, entry by entry, is the edge's score.

  The reference gathers the source rows and the destination rows of the node table, lays them side by side as
  500000 rows of 256 numbers, and applies the three dense layers with the rectifier after each and the logistic
  function — written out as 1 / (1 + e⁻ˣ) — at the end. Reading its operations one at a time at entry (e, 0):
  the 256-long contraction of the first layer splits into its first and last 128 positions (`EdgeScore.sum_split`),
  which meet the source row against columns 0 … 127 of `W1`'s row and the destination row against columns
  128 … 255; the transposes only swap the two coordinates of a weight; the broadcasts of the biases read the bias
  at the unit's number; the third layer's contraction has one term; and 1 / (1 + e⁻ˣ) is the logistic function by
  its definition on the extended reals (the word 0x3F800000 denotes 1).
-/
import proofs.«149243_j80410377716239_2_alg».proof.Proof.Gen.ReferenceIdeal.Read
import proofs.«149243_j80410377716239_2_alg».proof.Proof.LibGatherRows
import proofs.«149243_j80410377716239_2_alg».proof.Proof.LibConcatCols
import proofs.«149243_j80410377716239_2_alg».proof.Proof.EdgeScore
import Idealize.ShloMosaic.PureOps.IdealRules
import Idealize.ShloMosaic.PureOps.Ideal.Laws
import Idealize.ShloMosaic.Lib.Pipeline.Value
import Idealize.ShloMosaic.Lib.ValueIdx

noncomputable section

open scoped BigOperators

namespace Cert.ReferenceIdeal.RefRow

open Cert.ReferenceIdeal Cert.ReferenceIdeal.Gen Cert.ReferenceIdeal.Read
open Idealize.ShloMosaic Idealize.ShloMosaic.ValueIdx Cert.EdgeScore

variable (h : (⟨S100000x128, .f32⟩ : BufTy).Contents (Elt Ideal)) (s d : (⟨S500000, .i32⟩ : BufTy).Contents (Elt Ideal))
  (W1 : (⟨S128x256, .f32⟩ : BufTy).Contents (Elt Ideal)) (b1 : (⟨S128, .f32⟩ : BufTy).Contents (Elt Ideal))
  (W2 : (⟨S1x128, .f32⟩ : BufTy).Contents (Elt Ideal)) (b2 : (⟨S1, .f32⟩ : BufTy).Contents (Elt Ideal))
  (W3 : (⟨S1x1, .f32⟩ : BufTy).Contents (Elt Ideal)) (b3 : (⟨S1, .f32⟩ : BufTy).Contents (Elt Ideal))

/-! ## The operand coordinates of each operation, as coordinates -/

theorem lidx16 (e : Fin 500000) (c : Fin 128) (k : Fin 256) : lidx_main_v16 (ix2 e c) k = ix2 e k :=
  funext fun a => Fin.ext (by match a with | ⟨0, _⟩ => rfl | ⟨1, _⟩ => rfl)
theorem ridx16 (e : Fin 500000) (c : Fin 128) (k : Fin 256) : ridx_main_v16 (ix2 e c) k = ix2 k c :=
  funext fun a => Fin.ext (by match a with | ⟨0, _⟩ => rfl | ⟨1, _⟩ => rfl)
theorem idx15 (k : Fin 256) (c : Fin 128) : idx_main_v15 (ix2 k c) = ix2 c k :=
  funext fun a => Fin.ext (by match a with | ⟨0, _⟩ => rfl | ⟨1, _⟩ => rfl)
theorem idx17_18 (e : Fin 500000) (c : Fin 128) : idx_main_v17 (idx_main_v18 (ix2 e c)) = ix1 c :=
  funext fun a => Fin.ext (by match a with | ⟨0, _⟩ => rfl)
theorem lidx22 (e : Fin 500000) (k : Fin 1) (c : Fin 128) : lidx_main_v22 (ix2 e k) c = ix2 e c :=
  funext fun a => Fin.ext (by match a with | ⟨0, _⟩ => rfl | ⟨1, _⟩ => rfl)
theorem ridx22 (e : Fin 500000) (k : Fin 1) (c : Fin 128) : ridx_main_v22 (ix2 e k) c = ix2 c k :=
  funext fun a => Fin.ext (by match a with | ⟨0, _⟩ => rfl | ⟨1, _⟩ => rfl)
theorem idx21 (c : Fin 128) (k : Fin 1) : idx_main_v21 (ix2 c k) = ix2 k c :=
  funext fun a => Fin.ext (by match a with | ⟨0, _⟩ => rfl | ⟨1, _⟩ => rfl)
theorem idx23_24 (i : S500000x1.Idx) : idx_main_v23 (idx_main_v24 i) = ix1 (0 : Fin 1) :=
  funext fun a => Fin.ext (by match a with | ⟨0, _⟩ => rfl)
theorem lidx28 (e : Fin 500000) (k k' : Fin 1) : lidx_main_v28 (ix2 e k) k' = ix2 e k' :=
  funext fun a => Fin.ext (by match a with | ⟨0, _⟩ => rfl | ⟨1, _⟩ => rfl)
theorem ridx28 (e : Fin 500000) (k k' : Fin 1) : ridx_main_v28 (ix2 e k) k' = ix2 k' k :=
  funext fun a => Fin.ext (by match a with | ⟨0, _⟩ => rfl | ⟨1, _⟩ => rfl)
theorem idx27 (a b : Fin 1) : idx_main_v27 (ix2 a b) = ix2 b a :=
  funext fun x => Fin.ext (by match x with | ⟨0, _⟩ => rfl | ⟨1, _⟩ => rfl)
theorem idx29_30 (i : S500000x1.Idx) : idx_main_v29 (idx_main_v30 i) = ix1 (0 : Fin 1) :=
  funext fun a => Fin.ext (by match a with | ⟨0, _⟩ => rfl)

/-! ## The joined rows -/

/-- Position `j` of the first half of edge `e`'s joined row is feature `j` of its source node. -/
theorem join_left (e : Fin 500000) (j : Fin 128) (pf : j.val < 256) :
    val_main_v14 (F := Ideal) h s d (ix2 e (⟨j.val, pf⟩ : Fin 256)) = h (ix2 (node (val_main_v5 (F := Ideal) s) e) j) := by
  unfold val_main_v14
  rw [concatenate_cols_left _ _ _ e (⟨j.val, pf⟩ : Fin 256) j rfl]
  unfold val_main_v6
  exact GatherRows.gather_rows_apply (N := 100000) (R := 500000) (C := 128) (by decide) _ h (val_main_v5 (F := Ideal) s) e j

/-- Position `128 + j` of the joined row is feature `j` of its destination node. -/
theorem join_right (e : Fin 500000) (j : Fin 128) (pf : 128 + j.val < 256) :
    val_main_v14 (F := Ideal) h s d (ix2 e (⟨128 + j.val, pf⟩ : Fin 256)) = h (ix2 (node (val_main_v12 (F := Ideal) d) e) j) := by
  unfold val_main_v14
  rw [concatenate_cols_right _ _ _ e (⟨128 + j.val, pf⟩ : Fin 256) j (Nat.add_comm _ _)]
  unfold val_main_v13
  exact GatherRows.gather_rows_apply (N := 100000) (R := 500000) (C := 128) (by decide) _ h (val_main_v12 (F := Ideal) d) e j

/-! ## The layers -/

/-- The zero word is the number zero, the word of 1.0 the number one. -/
theorem zero_word : (FloatOps.ofBits (F := Ideal) .f32 0x00000000#32 : EReal) = 0 := Ideal.ofBits_zero_f32
theorem one_word : (FloatOps.ofBits (F := Ideal) .f32 0x3F800000#32 : EReal) = 1 := IdealRules.sign_bit.ideal_onePat .f32

/-- Hidden unit `c` of edge `e`. -/
theorem layer1 (e : Fin 500000) (c : Fin 128) :
    val_main_v20 (F := Ideal) h s d W1 b1 (ix2 e c)
      = hidden (fun j => h (ix2 (node (val_main_v5 (F := Ideal) s) e) j))
          (fun j => h (ix2 (node (val_main_v12 (F := Ideal) d) e) j)) W1 b1 c := by
  rw [val_main_v20_apply, val_main_v19_apply, val_main_v16_apply, val_main_v18_apply, val_main_v17_apply,
    val_main_call0_v0_apply, val_main_call0_cst_apply, sum_split]
  unfold Cert.EdgeScore.hidden
  simp only [lidx16, ridx16, join_left, join_right, val_main_v15_apply, idx15, idx17_18, Ideal.maximumf_def, Ideal.addf_def,
    zero_word]

/-- The second layer's number for edge `e`. -/
theorem layer2 (e : Fin 500000) :
    val_main_v26 (F := Ideal) h s d W1 b1 W2 b2 (ix2 e (0 : Fin 1))
      = max ((∑ c : Fin 128, hidden (fun j => h (ix2 (node (val_main_v5 (F := Ideal) s) e) j))
            (fun j => h (ix2 (node (val_main_v12 (F := Ideal) d) e) j)) W1 b1 c * W2 (ix2 (0 : Fin 1) c)) + b2 (ix1 (0 : Fin 1))) 0 := by
  rw [val_main_v26_apply, val_main_v25_apply, val_main_v22_apply, val_main_v24_apply, val_main_v23_apply,
    val_main_call1_v0_apply, val_main_call1_cst_apply]
  simp only [lidx22, ridx22, layer1, val_main_v21_apply, idx21, idx23_24, Ideal.maximumf_def, Ideal.addf_def, zero_word]

/-- The third layer's number for edge `e`. -/
theorem layer3 (e : Fin 500000) :
    val_main_v32 (F := Ideal) h s d W1 b1 W2 b2 W3 b3 (ix2 e (0 : Fin 1))
      = max (max ((∑ c : Fin 128, hidden (fun j => h (ix2 (node (val_main_v5 (F := Ideal) s) e) j))
            (fun j => h (ix2 (node (val_main_v12 (F := Ideal) d) e) j)) W1 b1 c * W2 (ix2 (0 : Fin 1) c)) + b2 (ix1 (0 : Fin 1))) 0
          * W3 (ix2 (0 : Fin 1) (0 : Fin 1)) + b3 (ix1 (0 : Fin 1))) 0 := by
  rw [val_main_v32_apply, val_main_v31_apply, val_main_v28_apply, Fin.sum_univ_one, val_main_v30_apply, val_main_v29_apply,
    val_main_call2_v0_apply, val_main_call2_cst_apply, lidx28, ridx28, layer2, val_main_v27_apply, idx27, idx29_30]
  simp only [Ideal.maximumf_def, Ideal.addf_def, zero_word]

/-- THE REFERENCE'S RESULT is the array of the edges' scores. -/
theorem result_eq :
    val_main_v38 (F := Ideal) h s d W1 b1 W2 b2 W3 b3
      = scores h (val_main_v5 (F := Ideal) s) (val_main_v12 (F := Ideal) d) W1 b1 W2 b2 W3 b3 := by
  funext i
  obtain ⟨e, k, rfl⟩ : ∃ (e : Fin 500000) (k : Fin 1), i = ix2 e k := ⟨i 0, i 1, eq_ix2 i⟩
  obtain rfl : k = 0 := Subsingleton.elim _ _
  rw [val_main_v38_apply, val_main_v37_apply, val_main_cst_3_apply, val_main_v36_apply, val_main_v35_apply,
    val_main_cst_apply, val_main_v34_apply, val_main_v33_apply, layer3]
  simp only [Ideal.hostDivf_def, Ideal.addf_def, Ideal.hostUnary_exp_def, Ideal.hostNegf_def, Ideal.negf_def, one_word]
  rfl

end Cert.ReferenceIdeal.RefRow

end
-- ==== Proof.lean ====
/-
  Scoring the edges of a graph: a blocked kernel against the whole-array computation.

  Both programs take a table `h` of 100000 nodes with 128 features each, two vectors `src`, `dst` naming the two
  endpoints of each of 500000 edges, and the weights and biases of three dense layers (256 → 128, 128 → 1, 1 → 1).
  For every edge they form the 256-long row of its two endpoints' features, apply the three layers with the rectifier
  after each, and return the logistic function of the result: a 500000 × 1 array of scores.

  The reference does this on whole arrays: gather the source rows, gather the destination rows, join them, three
  matrix products. The kernel gathers the same rows (after a change of float format, the identity on the extended
  reals), but never joins them: it cuts the transposed first-layer weights into the 128 rows that meet the source
  features and the 128 that meet the destination features, and for each block of 5000 edges adds the two products.
  On the extended reals the two are one function of the arguments, entry by entry (`EdgeScore.scores`): a sum over
  256 consecutive positions is the sum over the first 128 plus the sum over the last 128 — associativity and
  commutativity of addition only, so nothing need be finite and the precondition is not used —; a matrix product into
  a zero accumulator and the host's product are the same plain sum; and the kernel's logistic operation is
  1 / (1 + e⁻ˣ) by definition. The kernel's array is read off its run block by block (`KernelArray.run`), the
  reference's off its run one operation at a time (`RefRow.result_eq`).

  The three frames are the generated ones (the reference's is its run with the result dropped); the idealization
  rewrote nothing, so that conjunct is trivial.
-/
import proofs.«149243_j80410377716239_2_alg».proof.Defs
import proofs.«149243_j80410377716239_2_alg».proof.Proof.Gen.Kernel
import proofs.«149243_j80410377716239_2_alg».proof.Proof.Gen.Kernel.Skeleton
import proofs.«149243_j80410377716239_2_alg».proof.Proof.Gen.Kernel.Launch
import proofs.«149243_j80410377716239_2_alg».proof.Proof.Gen.Kernel.Points
import proofs.«149243_j80410377716239_2_alg».proof.Proof.Gen.Kernel.Frame
import proofs.«149243_j80410377716239_2_alg».proof.Proof.Gen.KernelIdeal
import proofs.«149243_j80410377716239_2_alg».proof.Proof.Gen.KernelIdeal.Skeleton
import proofs.«149243_j80410377716239_2_alg».proof.Proof.Gen.KernelIdeal.Launch
import proofs.«149243_j80410377716239_2_alg».proof.Proof.Gen.KernelIdeal.Points
import proofs.«149243_j80410377716239_2_alg».proof.Proof.Gen.KernelIdeal.Frame
import proofs.«149243_j80410377716239_2_alg».proof.Proof.Gen.ReferenceIdeal
import proofs.«149243_j80410377716239_2_alg».proof.Proof.Gen.KernelIdeal.Value
import proofs.«149243_j80410377716239_2_alg».proof.Proof.Gen.ReferenceIdeal.Run
import proofs.«149243_j80410377716239_2_alg».proof.Proof.Gen.ReferenceIdeal.Read
import proofs.«149243_j80410377716239_2_alg».proof.Proof.Gen.Pre_finite_inputs
import proofs.«149243_j80410377716239_2_alg».proof.Proof.KernelArray
import proofs.«149243_j80410377716239_2_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs prepare an index vector for the gather in the same way: a negative index has the table's rows
    added, and the vector is made a column. -/
theorem src_col (s : IVec Cert.KernelIdeal.S500000 32) :
    Cert.ReferenceIdeal.Read.val_main_v5 (F := Ideal) s = Cert.KernelIdeal.HostArrays.idxCol s := rfl
theorem dst_col (s : IVec Cert.KernelIdeal.S500000 32) :
    Cert.ReferenceIdeal.Read.val_main_v12 (F := Ideal) s = Cert.KernelIdeal.HostArrays.idxCol s := rfl

/-- From memories that agree on the arguments, both programs end with the array of the edges' scores. -/
theorem algebraic : Cert.algebraic_KernelIdeal_ReferenceIdeal := by
  intro m ρ m' ρ' _ hagree
  refine ⟨fun c => Cert.KernelIdeal.KernelArray.result m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v38_eq, Cert.ReferenceIdeal.RefRow.result_eq, a0, a1, a2, a3, a4, a5, a6, a7, a8,
    src_col, dst_col]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
